-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x32x32 : Shape := ⟨4, ![8, 512, 32, 32]⟩
abbrev S512x512 : Shape := ⟨2, ![512, 512]⟩
abbrev S_ : Shape := ⟨0, ![]⟩

class Facts : Prop where
  bcast_S_S8x512x32x32 : S_.BroadcastsInDim S8x512x32x32 (![] : Fin 0 → Fin S8x512x32x32.rank)
  reducesTo_S8x512x32x32_S_d0_1_2_3 : S8x512x32x32.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x512x32x32 .f32) (main_arg1 : FVec F S512x512 .f32) : IVec S_ 1 :=
  let main_v0 : FVec F S8x512x32x32 .f32 := Host.absf main_arg0
  let main_cst : FVec F S_ .f32 := constant S_ .f32 0x7F800000#32
  let main_v1 : FVec F S8x512x32x32 .f32 := broadcastInDim S8x512x32x32 ![] bcast_S_S8x512x32x32 main_cst
  let main_v2 : IVec S8x512x32x32 1 := cmpf .olt main_v0 main_v1
  let main_c : IVec S_ 1 := constantI S_ 1 1#1
  let main_v3 : IVec S_ 1 := (fun x v => Host.reduce IntOp.andi x v reducesTo_S8x512x32x32_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S8x512x32x32 : Shape := ⟨4, ![8, 512, 32, 32]⟩
abbrev S512x512 : Shape := ⟨2, ![512, 512]⟩
abbrev S_ : Shape := ⟨0, ![]⟩
abbrev S512 : Shape := ⟨1, ![512]⟩
abbrev S512x1 : Shape := ⟨2, ![512, 1]⟩
abbrev S8x32x32x512 : Shape := ⟨4, ![8, 32, 32, 512]⟩
abbrev S8192x512 : Shape := ⟨2, ![8192, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 17
  | .vmem => 7
  | .smem => 0
  | _ => 0

abbrev bufTy : (tb : Table) → Fin (tcTables nBuf tb) → BufTy
  | .hbm, ⟨0, _⟩ => ⟨S8x512x32x32, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S8x32x32x512, .f32⟩
  | .hbm, ⟨13, _⟩ => ⟨S8192x512, .f32⟩
  | .hbm, ⟨14, _⟩ => ⟨S8192x512, .f32⟩
  | .hbm, ⟨15, _⟩ => ⟨S8x32x32x512, .f32⟩
  | .hbm, ⟨16, _⟩ => ⟨S8x512x32x32, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c20_i32 : BitVec 32 := 20#32
  let v12 : BitVec 32 := Scalar.addi c0_i32 c20_i32
  let c1_i32 : BitVec 32 := 1#32
  ⟨c0_i32, v12, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  transposes_S512x512_S512x512_1_0 : S512x512.Transposes [1, 0] S512x512
  transposes_S8x512x32x32_S8x32x32x512_0_2_3_1 : S8x512x32x32.Transposes [0, 2, 3, 1] S8x32x32x512
  shapeCasts_S8x32x32x512_S8192x512 : S8x32x32x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  reduces_S1024x512_S1024 : S1024x512.Reduces [1] S1024
  shapeCasts_S1024_S1024x1 : S1024.ShapeCasts S1024x1
  broadcasts_S1024x1_S1024x512 : S1024x1.Broadcasts S1024x512
  shapeCasts_S8192x512_S8x32x32x512 : S8192x512.ShapeCasts S8x32x32x512
  transposes_S8x32x32x512_S8x512x32x32_0_3_1_2 : S8x32x32x512.Transposes [0, 3, 1, 2] S8x512x32x32
  dot_S1024x512_S512x512_S1024x512_1_0_0_1_n_n_wf : DotDims.WF S1024x512 S512x512 S1024x512 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v9) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x32x32 : Shape := ⟨4, ![8, 512, 32, 32]⟩
abbrev S512x512 : Shape := ⟨2, ![512, 512]⟩
abbrev S_ : Shape := ⟨0, ![]⟩
abbrev S512 : Shape := ⟨1, ![512]⟩
abbrev S512x1 : Shape := ⟨2, ![512, 1]⟩
abbrev S8x32x32x512 : Shape := ⟨4, ![8, 32, 32, 512]⟩
abbrev S8x32x32 : Shape := ⟨3, ![8, 32, 32]⟩
abbrev S8x32x32x1 : Shape := ⟨4, ![8, 32, 32, 1]⟩

abbrev nBuf : Space → Nat
  | .hbm => 315
  | .vmem => 0
  | .smem => 0
  | _ => 0

abbrev hbmTy0_0 (i : Nat) : BufTy := match i % 128 with
  | 0 => ⟨S8x512x32x32, .f32⟩
  | 1 => ⟨S512x512, .f32⟩
  | 2 => ⟨S512x512, .f32⟩
  | 3 => ⟨S_, .f32⟩
  | 4 => ⟨S512, .f32⟩
  | 5 => ⟨S512x1, .f32⟩
  | 6 => ⟨S_, .f32⟩
  | 7 => ⟨S512x1, .f32⟩
  | 8 => ⟨S512x1, .f32⟩
  | 9 => ⟨S512x512, .f32⟩
  | 10 => ⟨S512x512, .f32⟩
  | 11 => ⟨S8x32x32x512, .f32⟩
  | 12 => ⟨S_, .f32⟩
  | 13 => ⟨S8x32x32x512, .f32⟩
  | 14 => ⟨S8x32x32x512, .f32⟩
  | 15 => ⟨S_, .f32⟩
  | 16 => ⟨S8x32x32x512, .f32⟩
  | 17 => ⟨S8x32x32x512, .f32⟩
  | 18 => ⟨S8x32x32x512, .f32⟩
  | 19 => ⟨S8x32x32x512, .f32⟩
  | 20 => ⟨S8x32x32x512, .f32⟩
  | 21 => ⟨S_, .f32⟩
  | 22 => ⟨S8x32x32, .f32⟩
  | 23 => ⟨S8x32x32x1, .f32⟩
  | 24 => ⟨S_, .f32⟩
  | 25 => ⟨S8x32x32x1, .f32⟩
  | 26 => ⟨S8x32x32x1, .f32⟩
  | 27 => ⟨S8x32x32x512, .f32⟩
  | 28 => ⟨S8x32x32x512, .f32⟩
  | 29 => ⟨S8x32x32x512, .f32⟩
  | 30 => ⟨S_, .f32⟩
  | 31 => ⟨S8x32x32x512, .f32⟩
  | 32 => ⟨S8x32x32x512, .f32⟩
  | 33 => ⟨S8x32x32x512, .f32⟩
  | 34 => ⟨S8x32x32x512, .f32⟩
  | 35 => ⟨S8x32x32x512, .f32⟩
  | 36 => ⟨S_, .f32⟩
  | 37 => ⟨S8x32x32, .f32⟩
  | 38 => ⟨S8x32x32x1, .f32⟩
  | 39 => ⟨S_, .f32⟩
  | 40 => ⟨S8x32x32x1, .f32⟩
  | 41 => ⟨S8x32x32x1, .f32⟩
  | 42 => ⟨S8x32x32x512, .f32⟩
  | 43 => ⟨S8x32x32x512, .f32⟩
  | 44 => ⟨S8x32x32x512, .f32⟩
  | 45 => ⟨S_, .f32⟩
  | 46 => ⟨S8x32x32x512, .f32⟩
  | 47 => ⟨S8x32x32x512, .f32⟩
  | 48 => ⟨S8x32x32x512, .f32⟩
  | 49 => ⟨S8x32x32x512, .f32⟩
  | 50 => ⟨S8x32x32x512, .f32⟩
  | 51 => ⟨S_, .f32⟩
  | 52 => ⟨S8x32x32, .f32⟩
  | 53 => ⟨S8x32x32x1, .f32⟩
  | 54 => ⟨S_, .f32⟩
  | 55 => ⟨S8x32x32x1, .f32⟩
  | 56 => ⟨S8x32x32x1, .f32⟩
  | 57 => ⟨S8x32x32x512, .f32⟩
  | 58 => ⟨S8x32x32x512, .f32⟩
  | 59 => ⟨S8x32x32x512, .f32⟩
  | 60 => ⟨S_, .f32⟩
  | 61 => ⟨S8x32x32x512, .f32⟩
  | 62 => ⟨S8x32x32x512, .f32⟩
  | 63 => ⟨S8x32x32x512, .f32⟩
  | 64 => ⟨S8x32x32x512, .f32⟩
  | 65 => ⟨S8x32x32x512, .f32⟩
  | 66 => ⟨S_, .f32⟩
  | 67 => ⟨S8x32x32, .f32⟩
  | 68 => ⟨S8x32x32x1, .f32⟩
  | 69 => ⟨S_, .f32⟩
  | 70 => ⟨S8x32x32x1, .f32⟩
  | 71 => ⟨S8x32x32x1, .f32⟩
  | 72 => ⟨S8x32x32x512, .f32⟩
  | 73 => ⟨S8x32x32x512, .f32⟩
  | 74 => ⟨S8x32x32x512, .f32⟩
  | 75 => ⟨S_, .f32⟩
  | 76 => ⟨S8x32x32x512, .f32⟩
  | 77 => ⟨S8x32x32x512, .f32⟩
  | 78 => ⟨S8x32x32x512, .f32⟩
  | 79 => ⟨S8x32x32x512, .f32⟩
  | 80 => ⟨S8x32x32x512, .f32⟩
  | 81 => ⟨S_, .f32⟩
  | 82 => ⟨S8x32x32, .f32⟩
  | 83 => ⟨S8x32x32x1, .f32⟩
  | 84 => ⟨S_, .f32⟩
  | 85 => ⟨S8x32x32x1, .f32⟩
  | 86 => ⟨S8x32x32x1, .f32⟩
  | 87 => ⟨S8x32x32x512, .f32⟩
  | 88 => ⟨S8x32x32x512, .f32⟩
  | 89 => ⟨S8x32x32x512, .f32⟩
  | 90 => ⟨S_, .f32⟩
  | 91 => ⟨S8x32x32x512, .f32⟩
  | 92 => ⟨S8x32x32x512, .f32⟩
  | 93 => ⟨S8x32x32x512, .f32⟩
  | 94 => ⟨S8x32x32x512, .f32⟩
  | 95 => ⟨S8x32x32x512, .f32⟩
  | 96 => ⟨S_, .f32⟩
  | 97 => ⟨S8x32x32, .f32⟩
  | 98 => ⟨S8x32x32x1, .f32⟩
  | 99 => ⟨S_, .f32⟩
  | 100 => ⟨S8x32x32x1, .f32⟩
  | 101 => ⟨S8x32x32x1, .f32⟩
  | 102 => ⟨S8x32x32x512, .f32⟩
  | 103 => ⟨S8x32x32x512, .f32⟩
  | 104 => ⟨S8x32x32x512, .f32⟩
  | 105 => ⟨S_, .f32⟩
  | 106 => ⟨S8x32x32x512, .f32⟩
  | 107 => ⟨S8x32x32x512, .f32⟩
  | 108 => ⟨S8x32x32x512, .f32⟩
  | 109 => ⟨S8x32x32x512, .f32⟩
  | 110 => ⟨S8x32x32x512, .f32⟩
  | 111 => ⟨S_, .f32⟩
  | 112 => ⟨S8x32x32, .f32⟩
  | 113 => ⟨S8x32x32x1, .f32⟩
  | 114 => ⟨S_, .f32⟩
  | 115 => ⟨S8x32x32x1, .f32⟩
  | 116 => ⟨S8x32x32x1, .f32⟩
  | 117 => ⟨S8x32x32x512, .f32⟩
  | 118 => ⟨S8x32x32x512, .f32⟩
  | 119 => ⟨S8x32x32x512, .f32⟩
  | 120 => ⟨S_, .f32⟩
  | 121 => ⟨S8x32x32x512, .f32⟩
  | 122 => ⟨S8x32x32x512, .f32⟩
  | 123 => ⟨S8x32x32x512, .f32⟩
  | 124 => ⟨S8x32x32x512, .f32⟩
  | 125 => ⟨S8x32x32x512, .f32⟩
  | 126 => ⟨S_, .f32⟩
  | 127 => ⟨S8x32x32, .f32⟩
  | _ => ⟨S8x512x32x32, .f32⟩

abbrev hbmTy0_1 (i : Nat) : BufTy := match i % 128 with
  | 0 => ⟨S8x32x32x1, .f32⟩
  | 1 => ⟨S_, .f32⟩
  | 2 => ⟨S8x32x32x1, .f32⟩
  | 3 => ⟨S8x32x32x1, .f32⟩
  | 4 => ⟨S8x32x32x512, .f32⟩
  | 5 => ⟨S8x32x32x512, .f32⟩
  | 6 => ⟨S8x32x32x512, .f32⟩
  | 7 => ⟨S_, .f32⟩
  | 8 => ⟨S8x32x32x512, .f32⟩
  | 9 => ⟨S8x32x32x512, .f32⟩
  | 10 => ⟨S8x32x32x512, .f32⟩
  | 11 => ⟨S8x32x32x512, .f32⟩
  | 12 => ⟨S8x32x32x512, .f32⟩
  | 13 => ⟨S_, .f32⟩
  | 14 => ⟨S8x32x32, .f32⟩
  | 15 => ⟨S8x32x32x1, .f32⟩
  | 16 => ⟨S_, .f32⟩
  | 17 => ⟨S8x32x32x1, .f32⟩
  | 18 => ⟨S8x32x32x1, .f32⟩
  | 19 => ⟨S8x32x32x512, .f32⟩
  | 20 => ⟨S8x32x32x512, .f32⟩
  | 21 => ⟨S8x32x32x512, .f32⟩
  | 22 => ⟨S_, .f32⟩
  | 23 => ⟨S8x32x32x512, .f32⟩
  | 24 => ⟨S8x32x32x512, .f32⟩
  | 25 => ⟨S8x32x32x512, .f32⟩
  | 26 => ⟨S8x32x32x512, .f32⟩
  | 27 => ⟨S8x32x32x512, .f32⟩
  | 28 => ⟨S_, .f32⟩
  | 29 => ⟨S8x32x32, .f32⟩
  | 30 => ⟨S8x32x32x1, .f32⟩
  | 31 => ⟨S_, .f32⟩
  | 32 => ⟨S8x32x32x1, .f32⟩
  | 33 => ⟨S8x32x32x1, .f32⟩
  | 34 => ⟨S8x32x32x512, .f32⟩
  | 35 => ⟨S8x32x32x512, .f32⟩
  | 36 => ⟨S8x32x32x512, .f32⟩
  | 37 => ⟨S_, .f32⟩
  | 38 => ⟨S8x32x32x512, .f32⟩
  | 39 => ⟨S8x32x32x512, .f32⟩
  | 40 => ⟨S8x32x32x512, .f32⟩
  | 41 => ⟨S8x32x32x512, .f32⟩
  | 42 => ⟨S8x32x32x512, .f32⟩
  | 43 => ⟨S_, .f32⟩
  | 44 => ⟨S8x32x32, .f32⟩
  | 45 => ⟨S8x32x32x1, .f32⟩
  | 46 => ⟨S_, .f32⟩
  | 47 => ⟨S8x32x32x1, .f32⟩
  | 48 => ⟨S8x32x32x1, .f32⟩
  | 49 => ⟨S8x32x32x512, .f32⟩
  | 50 => ⟨S8x32x32x512, .f32⟩
  | 51 => ⟨S8x32x32x512, .f32⟩
  | 52 => ⟨S_, .f32⟩
  | 53 => ⟨S8x32x32x512, .f32⟩
  | 54 => ⟨S8x32x32x512, .f32⟩
  | 55 => ⟨S8x32x32x512, .f32⟩
  | 56 => ⟨S8x32x32x512, .f32⟩
  | 57 => ⟨S8x32x32x512, .f32⟩
  | 58 => ⟨S_, .f32⟩
  | 59 => ⟨S8x32x32, .f32⟩
  | 60 => ⟨S8x32x32x1, .f32⟩
  | 61 => ⟨S_, .f32⟩
  | 62 => ⟨S8x32x32x1, .f32⟩
  | 63 => ⟨S8x32x32x1, .f32⟩
  | 64 => ⟨S8x32x32x512, .f32⟩
  | 65 => ⟨S8x32x32x512, .f32⟩
  | 66 => ⟨S8x32x32x512, .f32⟩
  | 67 => ⟨S_, .f32⟩
  | 68 => ⟨S8x32x32x512, .f32⟩
  | 69 => ⟨S8x32x32x512, .f32⟩
  | 70 => ⟨S8x32x32x512, .f32⟩
  | 71 => ⟨S8x32x32x512, .f32⟩
  | 72 => ⟨S8x32x32x512, .f32⟩
  | 73 => ⟨S_, .f32⟩
  | 74 => ⟨S8x32x32, .f32⟩
  | 75 => ⟨S8x32x32x1, .f32⟩
  | 76 => ⟨S_, .f32⟩
  | 77 => ⟨S8x32x32x1, .f32⟩
  | 78 => ⟨S8x32x32x1, .f32⟩
  | 79 => ⟨S8x32x32x512, .f32⟩
  | 80 => ⟨S8x32x32x512, .f32⟩
  | 81 => ⟨S8x32x32x512, .f32⟩
  | 82 => ⟨S_, .f32⟩
  | 83 => ⟨S8x32x32x512, .f32⟩
  | 84 => ⟨S8x32x32x512, .f32⟩
  | 85 => ⟨S8x32x32x512, .f32⟩
  | 86 => ⟨S8x32x32x512, .f32⟩
  | 87 => ⟨S8x32x32x512, .f32⟩
  | 88 => ⟨S_, .f32⟩
  | 89 => ⟨S8x32x32, .f32⟩
  | 90 => ⟨S8x32x32x1, .f32⟩
  | 91 => ⟨S_, .f32⟩
  | 92 => ⟨S8x32x32x1, .f32⟩
  | 93 => ⟨S8x32x32x1, .f32⟩
  | 94 => ⟨S8x32x32x512, .f32⟩
  | 95 => ⟨S8x32x32x512, .f32⟩
  | 96 => ⟨S8x32x32x512, .f32⟩
  | 97 => ⟨S_, .f32⟩
  | 98 => ⟨S8x32x32x512, .f32⟩
  | 99 => ⟨S8x32x32x512, .f32⟩
  | 100 => ⟨S8x32x32x512, .f32⟩
  | 101 => ⟨S8x32x32x512, .f32⟩
  | 102 => ⟨S8x32x32x512, .f32⟩
  | 103 => ⟨S_, .f32⟩
  | 104 => ⟨S8x32x32, .f32⟩
  | 105 => ⟨S8x32x32x1, .f32⟩
  | 106 => ⟨S_, .f32⟩
  | 107 => ⟨S8x32x32x1, .f32⟩
  | 108 => ⟨S8x32x32x1, .f32⟩
  | 109 => ⟨S8x32x32x512, .f32⟩
  | 110 => ⟨S8x32x32x512, .f32⟩
  | 111 => ⟨S8x32x32x512, .f32⟩
  | 112 => ⟨S_, .f32⟩
  | 113 => ⟨S8x32x32x512, .f32⟩
  | 114 => ⟨S8x32x32x512, .f32⟩
  | 115 => ⟨S8x32x32x512, .f32⟩
  | 116 => ⟨S8x32x32x512, .f32⟩
  | 117 => ⟨S8x32x32x512, .f32⟩
  | 118 => ⟨S_, .f32⟩
  | 119 => ⟨S8x32x32, .f32⟩
  | 120 => ⟨S8x32x32x1, .f32⟩
  | 121 => ⟨S_, .f32⟩
  | 122 => ⟨S8x32x32x1, .f32⟩
  | 123 => ⟨S8x32x32x1, .f32⟩
  | 124 => ⟨S8x32x32x512, .f32⟩
  | 125 => ⟨S8x32x32x512, .f32⟩
  | 126 => ⟨S8x32x32x512, .f32⟩
  | 127 => ⟨S_, .f32⟩
  | _ => ⟨S8x512x32x32, .f32⟩

abbrev hbmTy0_2 (i : Nat) : BufTy := match i % 128 with
  | 0 => ⟨S8x32x32x512, .f32⟩
  | 1 => ⟨S8x32x32x512, .f32⟩
  | 2 => ⟨S8x32x32x512, .f32⟩
  | 3 => ⟨S8x32x32x512, .f32⟩
  | 4 => ⟨S8x32x32x512, .f32⟩
  | 5 => ⟨S_, .f32⟩
  | 6 => ⟨S8x32x32, .f32⟩
  | 7 => ⟨S8x32x32x1, .f32⟩
  | 8 => ⟨S_, .f32⟩
  | 9 => ⟨S8x32x32x1, .f32⟩
  | 10 => ⟨S8x32x32x1, .f32⟩
  | 11 => ⟨S8x32x32x512, .f32⟩
  | 12 => ⟨S8x32x32x512, .f32⟩
  | 13 => ⟨S8x32x32x512, .f32⟩
  | 14 => ⟨S_, .f32⟩
  | 15 => ⟨S8x32x32x512, .f32⟩
  | 16 => ⟨S8x32x32x512, .f32⟩
  | 17 => ⟨S8x32x32x512, .f32⟩
  | 18 => ⟨S8x32x32x512, .f32⟩
  | 19 => ⟨S8x32x32x512, .f32⟩
  | 20 => ⟨S_, .f32⟩
  | 21 => ⟨S8x32x32, .f32⟩
  | 22 => ⟨S8x32x32x1, .f32⟩
  | 23 => ⟨S_, .f32⟩
  | 24 => ⟨S8x32x32x1, .f32⟩
  | 25 => ⟨S8x32x32x1, .f32⟩
  | 26 => ⟨S8x32x32x512, .f32⟩
  | 27 => ⟨S8x32x32x512, .f32⟩
  | 28 => ⟨S8x32x32x512, .f32⟩
  | 29 => ⟨S_, .f32⟩
  | 30 => ⟨S8x32x32x512, .f32⟩
  | 31 => ⟨S8x32x32x512, .f32⟩
  | 32 => ⟨S8x32x32x512, .f32⟩
  | 33 => ⟨S8x32x32x512, .f32⟩
  | 34 => ⟨S8x32x32x512, .f32⟩
  | 35 => ⟨S_, .f32⟩
  | 36 => ⟨S8x32x32, .f32⟩
  | 37 => ⟨S8x32x32x1, .f32⟩
  | 38 => ⟨S_, .f32⟩
  | 39 => ⟨S8x32x32x1, .f32⟩
  | 40 => ⟨S8x32x32x1, .f32⟩
  | 41 => ⟨S8x32x32x512, .f32⟩
  | 42 => ⟨S8x32x32x512, .f32⟩
  | 43 => ⟨S8x32x32x512, .f32⟩
  | 44 => ⟨S_, .f32⟩
  | 45 => ⟨S8x32x32x512, .f32⟩
  | 46 => ⟨S8x32x32x512, .f32⟩
  | 47 => ⟨S8x32x32x512, .f32⟩
  | 48 => ⟨S8x32x32x512, .f32⟩
  | 49 => ⟨S8x32x32x512, .f32⟩
  | 50 => ⟨S_, .f32⟩
  | 51 => ⟨S8x32x32, .f32⟩
  | 52 => ⟨S8x32x32x1, .f32⟩
  | 53 => ⟨S_, .f32⟩
  | 54 => ⟨S8x32x32x1, .f32⟩
  | 55 => ⟨S8x32x32x1, .f32⟩
  | 56 => ⟨S8x32x32x512, .f32⟩
  | 57 => ⟨S8x32x32x512, .f32⟩
  | 58 => ⟨S8x512x32x32, .f32⟩
  | _ => ⟨S8x512x32x32, .f32⟩

abbrev hbmTy (i : Nat) : BufTy := match i / 128 with
  | 0 => hbmTy0_0 i
  | 1 => hbmTy0_1 i
  | 2 => hbmTy0_2 i
  | _ => ⟨S8x512x32x32, .f32⟩

abbrev bufTy : (tb : Table) → Fin (tcTables nBuf tb) → BufTy
  | .hbm, ⟨i, _⟩ => hbmTy i
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_14 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_15 : Ref sig .tc := ⟨.hbm, 81, rfl⟩
abbrev main_v63 : Ref sig .tc := ⟨.hbm, 82, rfl⟩
abbrev main_v64 : Ref sig .tc := ⟨.hbm, 83, rfl⟩
abbrev main_cst_16 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_18 : Ref sig .tc := ⟨.hbm, 96, rfl⟩
abbrev main_v75 : Ref sig .tc := ⟨.hbm, 97, rfl⟩
abbrev main_v76 : Ref sig .tc := ⟨.hbm, 98, rfl⟩
abbrev main_cst_19 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_20 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_21 : Ref sig .tc := ⟨.hbm, 111, rfl⟩
abbrev main_v87 : Ref sig .tc := ⟨.hbm, 112, rfl⟩
abbrev main_v88 : Ref sig .tc := ⟨.hbm, 113, rfl⟩
abbrev main_cst_22 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_23 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_24 : Ref sig .tc := ⟨.hbm, 126, rfl⟩
abbrev main_v99 : Ref sig .tc := ⟨.hbm, 127, rfl⟩
abbrev main_v100 : Ref sig .tc := ⟨.hbm, 128, rfl⟩
abbrev main_cst_25 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_26 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_27 : Ref sig .tc := ⟨.hbm, 141, rfl⟩
abbrev main_v111 : Ref sig .tc := ⟨.hbm, 142, rfl⟩
abbrev main_v112 : Ref sig .tc := ⟨.hbm, 143, rfl⟩
abbrev main_cst_28 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_29 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_30 : Ref sig .tc := ⟨.hbm, 156, rfl⟩
abbrev main_v123 : Ref sig .tc := ⟨.hbm, 157, rfl⟩
abbrev main_v124 : Ref sig .tc := ⟨.hbm, 158, rfl⟩
abbrev main_cst_31 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_32 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_33 : Ref sig .tc := ⟨.hbm, 171, rfl⟩
abbrev main_v135 : Ref sig .tc := ⟨.hbm, 172, rfl⟩
abbrev main_v136 : Ref sig .tc := ⟨.hbm, 173, rfl⟩
abbrev main_cst_34 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_35 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_36 : Ref sig .tc := ⟨.hbm, 186, rfl⟩
abbrev main_v147 : Ref sig .tc := ⟨.hbm, 187, rfl⟩
abbrev main_v148 : Ref sig .tc := ⟨.hbm, 188, rfl⟩
abbrev main_cst_37 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_38 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_39 : Ref sig .tc := ⟨.hbm, 201, rfl⟩
abbrev main_v159 : Ref sig .tc := ⟨.hbm, 202, rfl⟩
abbrev main_v160 : Ref sig .tc := ⟨.hbm, 203, rfl⟩
abbrev main_cst_40 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_41 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_42 : Ref sig .tc := ⟨.hbm, 216, rfl⟩
abbrev main_v171 : Ref sig .tc := ⟨.hbm, 217, rfl⟩
abbrev main_v172 : Ref sig .tc := ⟨.hbm, 218, rfl⟩
abbrev main_cst_43 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_44 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_45 : Ref sig .tc := ⟨.hbm, 231, rfl⟩
abbrev main_v183 : Ref sig .tc := ⟨.hbm, 232, rfl⟩
abbrev main_v184 : Ref sig .tc := ⟨.hbm, 233, rfl⟩
abbrev main_cst_46 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_47 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_cst_48 : Ref sig .tc := ⟨.hbm, 246, rfl⟩
abbrev main_v195 : Ref sig .tc := ⟨.hbm, 247, rfl⟩
abbrev main_v196 : Ref sig .tc := ⟨.hbm, 248, rfl⟩
abbrev main_cst_49 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_cst_50 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_51 : Ref sig .tc := ⟨.hbm, 261, rfl⟩
abbrev main_v207 : Ref sig .tc := ⟨.hbm, 262, rfl⟩
abbrev main_v208 : Ref sig .tc := ⟨.hbm, 263, rfl⟩
abbrev main_cst_52 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_53 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_54 : Ref sig .tc := ⟨.hbm, 276, rfl⟩
abbrev main_v219 : Ref sig .tc := ⟨.hbm, 277, rfl⟩
abbrev main_v220 : Ref sig .tc := ⟨.hbm, 278, rfl⟩
abbrev main_cst_55 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_cst_56 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_cst_57 : Ref sig .tc := ⟨.hbm, 291, rfl⟩
abbrev main_v231 : Ref sig .tc := ⟨.hbm, 292, rfl⟩
abbrev main_v232 : Ref sig .tc := ⟨.hbm, 293, rfl⟩
abbrev main_cst_58 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_cst_59 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_cst_60 : Ref sig .tc := ⟨.hbm, 306, rfl⟩
abbrev main_v243 : Ref sig .tc := ⟨.hbm, 307, rfl⟩
abbrev main_v244 : Ref sig .tc := ⟨.hbm, 308, rfl⟩
abbrev main_cst_61 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  transposes_S8x512x32x32_S8x32x32x512_0_2_3_1 : S8x512x32x32.Transposes [0, 2, 3, 1] S8x32x32x512
  bcast_S_S8x32x32x512 : S_.BroadcastsInDim S8x32x32x512 (![] : Fin 0 → Fin S8x32x32x512.rank)
  reducesTo_S8x32x32x512_S8x32x32_d3 : S8x32x32x512.ReducesTo [3] S8x32x32
  bcast_S8x32x32_S8x32x32x1_0_1_2 : S8x32x32.BroadcastsInDim S8x32x32x1 (![0, 1, 2] : Fin 3 → Fin S8x32x32x1.rank)
  bcast_S_S8x32x32x1 : S_.BroadcastsInDim S8x32x32x1 (![] : Fin 0 → Fin S8x32x32x1.rank)
  bcast_S8x32x32x1_S8x32x32x512_0_1_2_3 : S8x32x32x1.BroadcastsInDim S8x32x32x512 (![0, 1, 2, 3] : Fin 4 → Fin S8x32x32x512.rank)
  transposes_S8x32x32x512_S8x512x32x32_0_3_1_2 : S8x32x32x512.Transposes [0, 3, 1, 2] S8x512x32x32
  dot_S8x32x32x512_S512x512_S8x32x32x512_3_0_012_1_n_n_wf : DotDims.WF S8x32x32x512 S512x512 S8x32x32x512 [3] [0] [0, 1, 2] [1] [] []
  dot_S8x32x32x512_S512x512_S8x32x32x512_3_1_012_0_n_n_wf : DotDims.WF S8x32x32x512 S512x512 S8x32x32x512 [3] [1] [0, 1, 2] [0] [] []

variable [Facts₀]

def dot_S8x32x32x512_S512x512_S8x32x32x512_3_0_012_1_n_n : DotDims S8x32x32x512 S512x512 S8x32x32x512 where
  lhsContracting := [3]
  rhsContracting := [0]
  lhsNonContracting := [0, 1, 2]
  rhsNonContracting := [1]
  lhsBatch := []
  rhsBatch := []
  wf := dot_S8x32x32x512_S512x512_S8x32x32x512_3_0_012_1_n_n_wf
def dot_S8x32x32x512_S512x512_S8x32x32x512_3_1_012_0_n_n : DotDims S8x32x32x512 S512x512 S8x32x32x512 where
  lhsContracting := [3]
  rhsContracting := [1]
  lhsNonContracting := [0, 1, 2]
  rhsNonContracting := [0]
  lhsBatch := []
  rhsBatch := []
  wf := dot_S8x32x32x512_S512x512_S8x32x32x512_3_1_012_0_n_n_wf

class Facts : Prop extends Facts₀ where

variable [Facts]
-- ==== Proof.LibWholeStore.lean ====
/-
  A store over a whole block, made last, is what the block then reads.

  A list of stores through rectangles of a view is read back index by index: each index reads the payload of
  the last store whose rectangle holds it. When the last store's rectangle is the whole shape at zero offsets,
  every index is under it, so the contents read back are that store's payload, whatever was stored before and
  whatever the buffer held. Stated over an abstract shape, so that applying it at a large literal shape never
  asks for the shape's index set.
-/
import Idealize.ShloMosaic.Lib.Pipeline.Value

noncomputable section

namespace Cert.WholeStore

open Idealize.ShloMosaic

variable {sig : RefSig} {κ : Kind} {sp : Space} {S : Shape} {e : EltTy} {Val : EltTy → Type}

/-- The whole-shape rectangle at zero offsets covers every index, so a list of stores headed by one through it
    covers the shape. -/
theorem cover_cons [∀ e, Nonempty (Val e)] {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self .., View.mem_set_unit_zero h inb y⟩

/-- A buffer read after a list of stores whose last is a store of `w` over the whole shape reads `w`. -/
theorem read_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons h inb w L)]
  exact View.canon_cons_unit_zero h inb w L

end Cert.WholeStore

end
-- ==== Proof.KernelLoop.lean ====
/-
  What the kernel body leaves in its output block: twenty applications of the step to the start fill.

  The body fills its scratch block with the start value, then runs a counted loop of twenty trips; each trip
  loads the scratch block whole, applies the step (a pure function of the loaded block, the matrix block, its
  transpose's block and the channel block) and stores the result over the whole scratch block; after the loop
  the scratch block is copied to the output block. Since every store covers the whole block, the scratch after
  the trips before `k` reads as the step applied `k` times to what it held at loop entry, by induction on `k`.
  Stated at any float instance.
-/
import proofs.«152769_j23046794510685_1_alg».proof.Proof.Gen.KernelIdeal.Frame
import Idealize.ShloMosaic.Lib.Pipeline.Value
import proofs.«152769_j23046794510685_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block rectangle. -/
theorem hz : (![0, 0] : Fin 2 → Nat) = fun _ => 0 := funext fun a => by fin_cases a <;> rfl

/-- The loop runs twenty trips. -/
theorem trips_eq : k0_t1_loop.trips = 20 := by decide

/-- One trip stores, over the whole scratch block, the step of what it finds there. -/
theorem trip_piece (𝒱 : Variants) (bd : Option 𝒱.V) (c : Dev nD) (i : grid0.Coords) (arg1 : Memref sig .tc .vmem S1024x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (v4 : Vec F S512x512 .f32) (v7 : Vec F S512x512 .f32) (v10 : Vec F S1024x512 .f32) (k : Fin k0_t1_loop.trips) (f : BufTy.Contents (Elt F) arg5.view.ty) :
    tripL_k0_t1 (F := F) 𝒱 c bd i arg1 harg1 arg2 harg2 arg3 harg3 arg4 harg4 arg5 harg5 v4 v7 v10 k f
      = [⟨Rect.unit ![0, 0] S1024x512.size inb_S1024x512_S1024x512_0_0, k0_pay2 v4 v7 v10 (arg5.view.read (Elt F) f)⟩] := by
  unfold tripL_k0_t1 trip_k0_t1
  dsimp only
  simp only [View.readAt_eq_ld, View.ld_unit_zero (S := S1024x512) hz]

/-- A store over the whole 1024 × 512 block, last, is what the block then reads. -/
theorem read_writes_whole {sp : Space} (v : View sig .tc sp S1024x512 .f32) (f : v.ty.Contents (Elt F)) (w : S1024x512.Idx → Elt F .f32)
    (L : List (View.Piece (Elt F) S1024x512 .f32)) :
    v.read (Elt F) (v.writes (Elt F) f ((⟨Rect.unit ![0, 0] S1024x512.size inb_S1024x512_S1024x512_0_0, w⟩ : View.Piece (Elt F) S1024x512 .f32) :: L)) = w :=
  Cert.WholeStore.read_writes_cons (S := S1024x512) v f hz inb_S1024x512_S1024x512_0_0 w L

/-- The scratch block after the trips before `k`: the step applied `k` times to its contents at loop entry. -/
theorem read_trips (𝒱 : Variants) (bd : Option 𝒱.V) (c : Dev nD) (i : grid0.Coords) (arg1 : Memref sig .tc .vmem S1024x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (v4 : Vec F S512x512 .f32) (v7 : Vec F S512x512 .f32) (v10 : Vec F S1024x512 .f32) (G : BufTy.Contents (Elt F) arg5.view.ty) (k : ℕ) (hk : k ≤ k0_t1_loop.trips) :
    arg5.view.read (Elt F) (arg5.view.writes (Elt F) G (pb_k0_t1 (F := F) 𝒱 c bd i arg1 harg1 arg2 harg2 arg3 harg3 arg4 harg4 arg5 harg5 v4 v7 v10 G k))
      = (k0_pay2 v4 v7 v10)^[k] (arg5.view.read (Elt F) G) := by
  induction k with
  | zero => rfl
  | succ k ih =>
    have hlt : k < k0_t1_loop.trips := hk
    have e := pb_k0_t1_succ (F := F) 𝒱 c bd i arg1 harg1 arg2 harg2 arg3 harg3 arg4 harg4 arg5 harg5 v4 v7 v10 G ⟨k, hlt⟩
    rw [show pb_k0_t1 (F := F) 𝒱 c bd i arg1 harg1 arg2 harg2 arg3 harg3 arg4 harg4 arg5 harg5 v4 v7 v10 G (k + 1) = _ from e, View.writes_append, trip_piece, read_writes_whole,
      Function.iterate_succ_apply']
    exact congrArg _ (ih (Nat.le_of_lt hlt))

/-- The body's stores into the output block: one store of the step applied twenty times to the start fill. -/
theorem run_pieces (c : Dev nD) (i : grid0.Coords) (arg1 : Memref sig .tc .vmem S1024x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (x0 : Vec F S1024x512 .f32) (x1 : Vec F S512x512 .f32) (x2 : Vec F S512x512 .f32) :
    (kernelRun0_A (F := F) c i arg1 harg1 arg2 harg2 arg3 harg3 arg4 harg4 arg5 harg5 x0 x1 x2).1
      = [⟨Rect.unit ![0, 0] S1024x512.size inb_S1024x512_S1024x512_0_0, (k0_pay2 x1 x2 x0)^[20] (k0_pay1 (F := F))⟩] := by
  unfold kernelRun0_A
  dsimp only
  sl_unfold_words
  rw [View.writes_append]
  simp only [View.readAt_eq_ld, harg1.read_unread, harg2.read_unread, harg3.read_unread,
    View.ld_unit_zero (S := S1024x512) hz, View.ld_unit_zero (S := S512x512) hz]
  rw [show Scf.trips k0_t1_loop.lb k0_t1_loop.ub k0_t1_loop.st = k0_t1_loop.trips from rfl,
    read_trips Variants.none none c i arg1 harg1 arg2 harg2 arg3 harg3 arg4 harg4 arg5 harg5 x1 x2 x0 _ k0_t1_loop.trips (le_refl _), read_writes_whole, trips_eq]

/-- So the output block after the body is the step applied twenty times to the start fill. -/
theorem out_eq (c : Dev nD) (i : grid0.Coords) (arg1 : Memref sig .tc .vmem S1024x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (x0 : Vec F S1024x512 .f32) (x1 : Vec F S512x512 .f32) (x2 : Vec F S512x512 .f32) :
    out0_A_3 (F := F) c i arg1 harg1 arg2 harg2 arg3 harg3 arg4 harg4 arg5 harg5 x0 x1 x2 = (k0_pay2 x1 x2 x0)^[20] (k0_pay1 (F := F)) := by
  unfold out0_A_3
  rw [run_pieces]
  exact read_writes_whole _ _ _ []

end Cert.KernelIdeal.Hand

end
-- ==== Proof.Spec.lean ====
/-
  The specification: the multiplicative update of a non-negative matrix factorisation, one pixel at a time.

  For one pixel with channel vector x (512 entries) and a 512 × 512 matrix w, an estimate h (512 entries)
  is updated by
      recon c = (∑ o, h o · w o c) + ε₁                 the reconstruction of channel c
      upd o   = h o · ∑ c, (x c / recon c) · w o c      the multiplicative update
      h' o    = upd o / ((∑ o', upd o') + ε₂)           the update normalised by its sum
  starting from the constant vector 1/512 and repeated twenty times. Pixels do not interact: the update of
  one pixel's estimate reads that pixel's channels and the matrix only. So whether the pixels are laid out as
  the rows of one 8192 × 512 matrix taken a block of rows at a time, or as an 8 × 32 × 32 grid with the
  channels last, every pixel's estimate goes through the same twenty steps.

  All of it is stated on the extended reals, where the quotient is the total one (`Ideal.div`); the two small
  constants and the starting value are kept as the float words the programs print, never evaluated: both
  programs print the same words.
-/
import Idealize.ShloMosaic.PureOps.Ideal
import Idealize.ShloMosaic.PureOps.Ideal.Laws
import Idealize.ShloMosaic.Lib.ValueIdx

noncomputable section

open scoped BigOperators

namespace Cert.Nmf

open Idealize.ShloMosaic Idealize.ShloMosaic.ValueIdx

/-- One value per channel. -/
abbrev Chan : Type := Fin 512 → EReal
/-- A 512 × 512 matrix by its two coordinates. -/
abbrev Mat512 : Type := Fin 512 → Fin 512 → EReal

/-- The constant added to a reconstruction before dividing by it (the float nearest 1e-20). -/
def eps1 : EReal := Ideal.ofBits .f32 0x1E3CE508#32
/-- The constant added to a sum before dividing by it (the float nearest 1e-19). -/
def eps2 : EReal := Ideal.ofBits .f32 0x1FEC1E4A#32
/-- The starting value of every entry of an estimate: 1/512. -/
def start : EReal := Ideal.ofBits .f32 0x3B000000#32

/-- The reconstruction of channel `c` from the estimate `h`. -/
def recon (w : Mat512) (h : Chan) (c : Fin 512) : EReal := (∑ o : Fin 512, h o * w o c) + eps1

/-- The multiplicative update of entry `o` of the estimate. -/
def upd (w : Mat512) (x h : Chan) (o : Fin 512) : EReal :=
  h o * ∑ c : Fin 512, Ideal.div (x c) (recon w h c) * w o c

/-- One step: the update divided by its sum. -/
def rowStep (w : Mat512) (x : Chan) (h : Chan) : Chan :=
  fun o => Ideal.div (upd w x h o) ((∑ o' : Fin 512, upd w x h o') + eps2)

/-- The estimate of one pixel after `k` steps. -/
def rowIter (w : Mat512) (x : Chan) (k : ℕ) : Chan := (rowStep w x)^[k] (fun _ => start)

theorem rowIter_zero (w : Mat512) (x : Chan) : rowIter w x 0 = fun _ => start := rfl

theorem rowIter_succ (w : Mat512) (x : Chan) (k : ℕ) : rowIter w x (k + 1) = rowStep w x (rowIter w x k) :=
  Function.iterate_succ_apply' _ _ _

/-- The result: at batch `b`, output channel `o`, pixel (`p`, `q`), the estimate of that pixel after twenty steps,
    read at `o`; the pixel's channel vector is `x` at (`b`, ·, `p`, `q`). -/
def G (x : (⟨4, ![8, 512, 32, 32]⟩ : Shape).Idx → EReal) (w : (⟨2, ![512, 512]⟩ : Shape).Idx → EReal) :
    (⟨4, ![8, 512, 32, 32]⟩ : Shape).Idx → EReal :=
  fun i => rowIter (fun o c => w (ix2 o c)) (fun c => x (ix4 (i 0) c (i 2) (i 3))) 20 (i 1)

end Cert.Nmf

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.BlockStep.lean ====
/-
  One step on a block of 1024 pixels laid out as the rows of a 1024 × 512 matrix.

  With H the block's estimates (one row per pixel), X the block's channel vectors, W the 512 × 512 matrix and
  WT its transpose, the step computes  U = H ⊙ ((X ⊘ (H·W + ε₁)) · WT)  and then divides every row of U by
  that row's sum plus ε₂. Entry (n, o) of the result reads row n of H, row n of X and the matrix only: it is
  the one-pixel step of the specification on those rows.
-/
import Idealize.ShloMosaic.Lib.ValueIdx
import Idealize.ShloMosaic.Lib.ValueLayout
import Idealize.ShloMosaic.Lib.Pipeline.Value
import Idealize.ShloMosaic.PureOps.Ideal.Laws
import proofs.«152769_j23046794510685_1_alg».proof.Proof.Spec
import proofs.«152769_j23046794510685_1_alg».proof.Proof.LibDense

noncomputable section

open scoped BigOperators

namespace Cert.Nmf

open Idealize.ShloMosaic Idealize.ShloMosaic.ValueIdx Cert.Dense

/-- A block of 1024 pixels by 512 channels. -/
abbrev SB : Shape := ⟨2, ![1024, 512]⟩
/-- The matrix. -/
abbrev SW : Shape := ⟨2, ![512, 512]⟩
/-- One value per pixel of a block, as a column. -/
abbrev SCol : Shape := ⟨2, ![1024, 1]⟩
/-- One value per pixel of a block. -/
abbrev SRows : Shape := ⟨1, ![1024]⟩

/-- The multiplicative update on a block: H ⊙ ((X ⊘ (H·W + ε₁)) · WT). -/
def blockUpd (W WT : FVec Ideal SW .f32) (X H : FVec Ideal SB .f32) : FVec Ideal SB .f32 :=
  mulf H (mm (divf X (addf (mm H W) (broadcast SB (Scalar.ofBits (F := Ideal) .f32 0x1E3CE508#32)))) WT)

/-- Entry (n, o) of the block's update is the one-pixel update of rows n of H and X, when WT is W transposed. -/
theorem blockUpd_apply (W WT : FVec Ideal SW .f32) (X H : FVec Ideal SB .f32)
    (hT : ∀ (c o : Fin 512), WT (ix2 c o) = W (ix2 o c)) (n : Fin 1024) (o : Fin 512) :
    blockUpd W WT X H (ix2 n o)
      = upd (fun o c => W (ix2 o c)) (fun c => X (ix2 n c)) (fun o => H (ix2 n o)) o := by
  show H (ix2 n o) * ∑ c : Fin 512,
      Ideal.div (X (ix2 n c)) ((∑ o' : Fin 512, H (ix2 n o') * W (ix2 o' c)) + Ideal.ofBits .f32 0x1E3CE508#32) * WT (ix2 c o) = _
  unfold upd recon eps1
  exact congrArg _ (Finset.sum_congr rfl fun c _ => by rw [hT])

/-- Every row divided by its sum plus ε₂: the sum along the channels, kept as a column, the constant added, the
    column spread back over the channels, the quotient. -/
def blockNorm (U : FVec Ideal SB .f32) (hred : SB.Reduces [1] SRows) (hφ : FKind.Formats .f32)
    (hacc : (0x00000000#32 : BitVec 32) = FKind.add.neutral .f32 hφ) (hsc : SRows.ShapeCasts SCol)
    (hbc : SCol.Broadcasts SB) : FVec Ideal SB .f32 :=
  divf U (broadcastTo SB (addf (shapeCast SCol (multiReduction .add [1] SRows U 0x00000000#32 hred hφ hacc) hsc)
    (broadcast SCol (Scalar.ofBits (F := Ideal) .f32 0x1FEC1E4A#32))) hbc)

/-- Entry (n, o) of the normalised block is U(n, o) over the sum of row n of U plus ε₂. -/
theorem blockNorm_apply (U : FVec Ideal SB .f32) (hred : SB.Reduces [1] SRows) (hφ : FKind.Formats .f32)
    (hacc : (0x00000000#32 : BitVec 32) = FKind.add.neutral .f32 hφ) (hsc : SRows.ShapeCasts SCol)
    (hbc : SCol.Broadcasts SB) (n : Fin 1024) (o : Fin 512) :
    blockNorm U hred hφ hacc hsc hbc (ix2 n o)
      = Ideal.div (U (ix2 n o)) ((∑ k : Fin 512, U (ix2 n k)) + eps2) := by
  show Ideal.div (U (ix2 n o)) (broadcastTo SB (addf (shapeCast SCol (multiReduction .add [1] SRows U 0x00000000#32 hred hφ hacc) hsc)
    (broadcast SCol (Scalar.ofBits (F := Ideal) .f32 0x1FEC1E4A#32))) hbc (ix2 n o)) = _
  rw [broadcastTo_apply _ hbc (ix2 n o) (ix2 n (0 : Fin 1)) (fun a => by
    match a with
    | ⟨0, _⟩ => rfl
    | ⟨1, _⟩ => rfl)]
  show Ideal.div (U (ix2 n o)) (shapeCast SCol (multiReduction .add [1] SRows U 0x00000000#32 hred hφ hacc) hsc (ix2 n (0 : Fin 1)) + eps2) = _
  rw [shapeCast_apply _ hsc (ix2 n (0 : Fin 1)) (ix1 n) (by
    rw [Shape.rowMajor_val_one, Shape.rowMajor_val_two]; show n.val = n.val * 1 + 0; omega)]
  rw [Ideal.multiReduction_add_single U _ hred hφ hacc (ix1 n)]
  have e : ∀ k : Fin 512, hred.lift (ix1 n) k = ix2 n k := fun k => funext fun a => Fin.ext (by
    match a with
    | ⟨0, _⟩ => rfl
    | ⟨1, _⟩ => rfl)
  show Ideal.div (U (ix2 n o)) ((∑ k : Fin 512, U (hred.lift (ix1 n) k)) + eps2) = _
  simp only [e]

/-- One step on a block. -/
def blockStep (W WT : FVec Ideal SW .f32) (X H : FVec Ideal SB .f32) (hred : SB.Reduces [1] SRows) (hφ : FKind.Formats .f32)
    (hacc : (0x00000000#32 : BitVec 32) = FKind.add.neutral .f32 hφ) (hsc : SRows.ShapeCasts SCol)
    (hbc : SCol.Broadcasts SB) : FVec Ideal SB .f32 :=
  blockNorm (blockUpd W WT X H) hred hφ hacc hsc hbc

/-- Entry (n, o) of a step on a block is the one-pixel step of rows n of H and X at o. -/
theorem blockStep_apply (W WT : FVec Ideal SW .f32) (X H : FVec Ideal SB .f32)
    (hT : ∀ (c o : Fin 512), WT (ix2 c o) = W (ix2 o c))
    (hred : SB.Reduces [1] SRows) (hφ : FKind.Formats .f32)
    (hacc : (0x00000000#32 : BitVec 32) = FKind.add.neutral .f32 hφ) (hsc : SRows.ShapeCasts SCol)
    (hbc : SCol.Broadcasts SB) (n : Fin 1024) (o : Fin 512) :
    blockStep W WT X H hred hφ hacc hsc hbc (ix2 n o)
      = rowStep (fun o c => W (ix2 o c)) (fun c => X (ix2 n c)) (fun o => H (ix2 n o)) o := by
  unfold blockStep
  rw [blockNorm_apply]
  unfold rowStep
  simp only [blockUpd_apply W WT X H hT]

/-- Entry (n, o) of a block after `k` steps from the constant start is pixel n's estimate after `k` steps, at o. -/
theorem blockIter_apply (W WT : FVec Ideal SW .f32) (X H0 : FVec Ideal SB .f32)
    (hT : ∀ (c o : Fin 512), WT (ix2 c o) = W (ix2 o c))
    (hred : SB.Reduces [1] SRows) (hφ : FKind.Formats .f32)
    (hacc : (0x00000000#32 : BitVec 32) = FKind.add.neutral .f32 hφ) (hsc : SRows.ShapeCasts SCol)
    (hbc : SCol.Broadcasts SB) (hH0 : ∀ (n : Fin 1024) (o : Fin 512), H0 (ix2 n o) = start) (k : ℕ) (n : Fin 1024) (o : Fin 512) :
    ((fun H => blockStep W WT X H hred hφ hacc hsc hbc)^[k] H0) (ix2 n o)
      = rowIter (fun o c => W (ix2 o c)) (fun c => X (ix2 n c)) k o := by
  induction k generalizing o with
  | zero => exact hH0 n o
  | succ k ih =>
    rw [Function.iterate_succ_apply', blockStep_apply W WT X _ hT, rowIter_succ]
    exact congrFun (congrArg _ (funext fun o' => ih o')) o

end Cert.Nmf

end
-- ==== Proof.KernelHost.lean ====
/-
  What the region finds and what its body computes, on the extended reals.

  Before the region the host normalises the matrix (each row of |weight| divided by its sum plus ε₂), transposes
  it, and lays the argument out as 8192 pixel rows of 512 channels (row (b·32 + p)·32 + q is pixel (b, p, q)).
  The body's loop step is the block step of those; its start fill is the constant start.
-/
import proofs.«152769_j23046794510685_1_alg».proof.Proof.Gen.KernelIdeal.Frame
import proofs.«152769_j23046794510685_1_alg».proof.Proof.BlockStep
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Nmf Cert.Dense

variable (m : (ℓ : Loc nD τ sig) → Buf (Elt Ideal) ℓ)

/-- The matrix as the host normalises it: every row of |weight| over its sum plus ε₂. -/
def wnorm (wt : FVec Ideal S512x512 .f32) : FVec Ideal S512x512 .f32 :=
  Host.divf (Host.absf wt) (broadcastInDim S512x512 ![0, 1] bcast_S512x1_S512x512_0_1 (addf (broadcastInDim S512x1 ![0] bcast_S512_S512x1_0
    (Host.reduceAdd (Host.absf wt) (constant S_ .f32 0x00000000#32) reducesTo_S512x512_S512_d1 h_S_))
    (broadcastInDim S512x1 ![] bcast_S_S512x1 (constant S_ .f32 0x1FEC1E4A#32))))

/-- The region finds the normalised matrix, -/
theorem V_matrix (c : Dev nD) :
    (V m c main_v6 : S512x512.Idx → EReal) = wnorm (m (c, Proc.devRef .tc main_arg1)) := by
  show StableHlo.after hostOps0 (fun b => m (c, b)) (Proc.devRef .tc main_v6) = _
  after_results
  rfl

/-- its transpose, -/
theorem V_matrixT (c : Dev nD) :
    (V m c main_v7 : S512x512.Idx → EReal)
      = transpose S512x512 [1, 0] (wnorm (m (c, Proc.devRef .tc main_arg1))) transposes_S512x512_S512x512_1_0 := by
  show StableHlo.after hostOps0 (fun b => m (c, b)) (Proc.devRef .tc main_v7) = _
  after_results
  rfl

/-- and the argument with its channels moved last, as 8192 rows. -/
theorem V_pixels (c : Dev nD) :
    (V m c main_v9 : S8192x512.Idx → EReal)
      = shapeCast S8192x512 (transpose S8x32x32x512 [0, 2, 3, 1] (m (c, Proc.devRef .tc main_arg0))
          transposes_S8x512x32x32_S8x32x32x512_0_2_3_1) shapeCasts_S8x32x32x512_S8192x512 := by
  show StableHlo.after hostOps0 (fun b => m (c, b)) (Proc.devRef .tc main_v9) = _
  after_results
  rfl

/-- The transposed matrix at (c, o) is the matrix at (o, c). -/
theorem matrixT_apply (c : Dev nD) (ch o : Fin 512) :
    (V m c main_v7 : S512x512.Idx → EReal) (ix2 ch o) = (V m c main_v6 : S512x512.Idx → EReal) (ix2 o ch) := by
  rw [V_matrixT, V_matrix]
  exact transpose_apply [1, 0] _ transposes_S512x512_S512x512_1_0 (ix2 ch o) (ix2 o ch) (fun a => by
    match a with
    | ⟨0, _⟩ => rfl
    | ⟨1, _⟩ => rfl)

/-- Row (b·32 + p)·32 + q of the pixel rows is pixel (b, p, q) of the argument. -/
theorem pixels_apply (c : Dev nD) (b : Fin 8) (p q : Fin 32) (r : Fin 8192) (hr : r.val = (b.val * 32 + p.val) * 32 + q.val)
    (ch : Fin 512) :
    (V m c main_v9 : S8192x512.Idx → EReal) (ix2 r ch)
      = (m (c, Proc.devRef .tc main_arg0) : S8x512x32x32.Idx → EReal) (ix4 b ch p q) := by
  rw [V_pixels]
  rw [shapeCast_apply _ shapeCasts_S8x32x32x512_S8192x512 (ix2 r ch) (ix4 b p q ch) (by
    rw [Shape.rowMajor_val_four, Shape.rowMajor_val_two]
    show ((b.val * 32 + p.val) * 32 + q.val) * 512 + ch.val = r.val * 512 + ch.val
    rw [hr])]
  exact transpose_apply [0, 2, 3, 1] _ transposes_S8x512x32x32_S8x32x32x512_0_2_3_1 (ix4 b p q ch) (ix4 b ch p q) (fun a => by
    match a with
    | ⟨0, _⟩ => rfl
    | ⟨1, _⟩ => rfl
    | ⟨2, _⟩ => rfl
    | ⟨3, _⟩ => rfl)

/-- The loop's step is the block step. -/
theorem step_eq (W WT : Vec Ideal S512x512 .f32) (X H : Vec Ideal S1024x512 .f32) :
    k0_pay2 (F := Ideal) W WT X H
      = blockStep W WT X H reduces_S1024x512_S1024 (.inl rfl) rfl shapeCasts_S1024_S1024x1 broadcasts_S1024x1_S1024x512 := by
  unfold k0_pay2
  simp only [shapeCast_self]
  unfold blockStep blockNorm blockUpd
  rw [← matmul_plain_zero (φ₁ := .bf16) (φ₂ := .bf16) none H W, ← matmul_plain_zero (φ₁ := .bf16) (φ₂ := .bf16) none _ WT]
  rfl

/-- The start fill is the constant start. -/
theorem fill_apply (n : Fin 1024) (o : Fin 512) : k0_pay1 (F := Ideal) (ix2 n o) = start := by
  unfold k0_pay1
  simp only [shapeCast_self]
  rfl

end Cert.KernelIdeal.Hand

end
-- ==== Proof.KernelValue.lean ====
/-
  The kernel's result on the extended reals is the specification of its arguments.

  Grid point t works on pixel rows 1024·t … 1024·t + 1023: its channel block is those rows of the pixel rows,
  its matrix blocks are the whole normalised matrix and the whole transpose, and what it writes back is the
  step applied twenty times to the start fill, which at row n and entry o is pixel row 1024·t + n's estimate
  after twenty steps. The eight blocks tile the 8192 rows, so the result array of the region is, row by row,
  every pixel's estimate after twenty steps; the host then folds the rows back to the 8 × 32 × 32 grid and moves
  the estimate's axis second.
-/
import proofs.«152769_j23046794510685_1_alg».proof.Proof.KernelLoop
import proofs.«152769_j23046794510685_1_alg».proof.Proof.KernelHost

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Nmf Cert.Dense

variable (m : (ℓ : Loc nD τ sig) → Buf (Elt Ideal) ℓ) (ρ : Dev nD → PrngReg)

/-- The region's result array, row by row: row r at entry o is pixel row r's estimate after twenty steps. -/
def pixelRows (c : Dev nD) : S8192x512.Idx → EReal :=
  fun i => rowIter (fun o ch => (V m c main_v6 : S512x512.Idx → EReal) (ix2 o ch))
    (fun ch => (V m c main_v9 : S8192x512.Idx → EReal) (ix2 (i 0) ch)) 20 (i 1)

/-- The printed index maps over the grid: the channel block and the result block move down the rows with the
    point, the matrix blocks stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The channel block at point t is rows 1024·t … of the pixel rows. -/
theorem chan_block (c : Dev nD) (t : Fin cfg0.N) (n : Fin 1024) (ch : Fin 512) (r : Fin 8192) (hr : r.val = t.val * 1024 + n.val) :
    (iblk m c 0 t : Vec Ideal S1024x512 .f32) (ix2 n ch) = (V m c main_v9 : S8192x512.Idx → EReal) (ix2 r ch) := by
  obtain ⟨e0, e1, -⟩ := idx_facts t
  unfold iblk
  rw [View.read_apply]
  show V m c main_v9 _ = V m c main_v9 _
  congr 1
  funext a
  apply Fin.ext
  match a with
  | ⟨0, _⟩ => show win0_0.index t (0 : Fin 2) * 1024 + 1 * n.val = r.val; rw [e0, hr]; omega
  | ⟨1, _⟩ => show win0_0.index t (1 : Fin 2) * 512 + 1 * ch.val = ch.val; rw [e1]; omega

/-- The matrix block at any point is the whole normalised matrix. -/
theorem matrix_block (c : Dev nD) (t : Fin cfg0.N) (o ch : Fin 512) :
    (iblk m c 1 t : Vec Ideal S512x512 .f32) (ix2 o ch) = (V m c main_v6 : S512x512.Idx → EReal) (ix2 o ch) := by
  obtain ⟨-, -, e2, e3, -⟩ := idx_facts t
  unfold iblk
  rw [View.read_apply]
  show V m c main_v6 _ = V m c main_v6 _
  congr 1
  funext a
  apply Fin.ext
  match a with
  | ⟨0, _⟩ => show win0_1.index t (0 : Fin 2) * 512 + 1 * o.val = o.val; rw [e2]; omega
  | ⟨1, _⟩ => show win0_1.index t (1 : Fin 2) * 512 + 1 * ch.val = ch.val; rw [e3]; omega

/-- The transposed matrix's block at any point is the whole transpose. -/
theorem matrixT_block (c : Dev nD) (t : Fin cfg0.N) (ch o : Fin 512) :
    (iblk m c 2 t : Vec Ideal S512x512 .f32) (ix2 ch o) = (V m c main_v7 : S512x512.Idx → EReal) (ix2 ch o) := by
  obtain ⟨-, -, -, -, e4, e5, -⟩ := idx_facts t
  unfold iblk
  rw [View.read_apply]
  show V m c main_v7 _ = V m c main_v7 _
  congr 1
  funext a
  apply Fin.ext
  match a with
  | ⟨0, _⟩ => show win0_2.index t (0 : Fin 2) * 512 + 1 * ch.val = ch.val; rw [e4]; omega
  | ⟨1, _⟩ => show win0_2.index t (1 : Fin 2) * 512 + 1 * o.val = o.val; rw [e5]; omega

/-- Twenty steps on a block from the start fill, at row n and entry o: row n's estimate after twenty steps. -/
theorem block_apply (W WT : Vec Ideal S512x512 .f32) (X : Vec Ideal S1024x512 .f32)
    (hT : ∀ (ch o : Fin 512), WT (ix2 ch o) = W (ix2 o ch)) (n : Fin 1024) (o : Fin 512) :
    ((k0_pay2 (F := Ideal) W WT X)^[20] (k0_pay1 (F := Ideal))) (ix2 n o)
      = rowIter (fun o ch => W (ix2 o ch)) (fun ch => X (ix2 n ch)) 20 o := by
  have e : k0_pay2 (F := Ideal) W WT X
      = fun H => blockStep W WT X H reduces_S1024x512_S1024 (.inl rfl) rfl shapeCasts_S1024_S1024x1 broadcasts_S1024x1_S1024x512 :=
    funext fun H => step_eq W WT X H
  rw [e]
  exact blockIter_apply W WT X _ hT _ _ _ _ _ fill_apply 20 n o

/-- What point t leaves in the result's staging block, at row n and entry o. -/
theorem point_apply (c : Dev nD) (t : Fin cfg0.N) (n : Fin 1024) (o : Fin 512) (r : Fin 8192) (hr : r.val = t.val * 1024 + n.val) :
    (outsAt0 m c t : Vec Ideal S1024x512 .f32) (ix2 n o) = pixelRows m c (ix2 r o) := by
  unfold outsAt0
  rw [out_eq]
  refine (block_apply (iblk m c 1 t) (iblk m c 2 t) (iblk m c 0 t) (fun ch o' => ?_) n o).trans ?_
  · rw [matrixT_block, matrix_block, matrixT_apply]
  · unfold pixelRows
    show rowIter (fun o ch => (iblk m c 1 t : Vec Ideal S512x512 .f32) (ix2 o ch)) (fun ch => (iblk m c 0 t : Vec Ideal S1024x512 .f32) (ix2 n ch)) 20 o
      = rowIter (fun o ch => (V m c main_v6 : S512x512.Idx → EReal) (ix2 o ch)) (fun ch => (V m c main_v9 : S8192x512.Idx → EReal) (ix2 r ch)) 20 o
    rw [show (fun o ch => (iblk m c 1 t : Vec Ideal S512x512 .f32) (ix2 o ch)) = fun o ch => (V m c main_v6 : S512x512.Idx → EReal) (ix2 o ch) from
        funext fun o' => funext fun ch => matrix_block m c t o' ch,
      show (fun ch => (iblk m c 0 t : Vec Ideal S1024x512 .f32) (ix2 n ch)) = fun ch => (V m c main_v9 : S8192x512.Idx → EReal) (ix2 r ch) from
        funext fun ch => chan_block m c t n ch r hr]

/-- What point t writes back is block t of the pixel rows' estimates. -/
theorem flushed_eq (c : Dev nD) (t : Fin cfg0.N) :
    (dats m 0 c).flushed 3 t = ((cfg0.win 3).blk t).view.read (Elt Ideal) (pixelRows m c) := by
  show (cfg0.win 3).cut (grid0.coords t) ((dats m 0 c).after 3 t) = _
  rw [after0_3]
  obtain ⟨-, -, -, -, -, -, e6, e7⟩ := idx_facts t
  funext j
  have hj : j = ix2 (j 0) (j 1) := eq_ix2 (n0 := 1024) (n1 := 512) j
  have hlt : t.val * 1024 + (j 0).val < 8192 := by
    have h1 : (j 0).val < 1024 := (j 0).isLt
    have h2 : t.val < 8 := by have := t.isLt; have hN : cfg0.N = 8 := N_0; omega
    omega
  have key := point_apply m c t (j 0) (j 1) ⟨t.val * 1024 + (j 0).val, hlt⟩ rfl
  rw [View.read_apply]
  show (outsAt0 m c t : Vec Ideal S1024x512 .f32) j = pixelRows m c (((cfg0.win 3).blk t).view.emb j)
  refine (congrArg (outsAt0 m c t : Vec Ideal S1024x512 .f32) hj).trans (key.trans (congrArg (pixelRows m c) ?_))
  funext a
  apply Fin.ext
  match a with
  | ⟨0, _⟩ => show t.val * 1024 + (j 0).val = win0_3.index t (0 : Fin 2) * 1024 + 1 * (j 0).val; rw [e6]; omega
  | ⟨1, _⟩ => show (j 1).val = win0_3.index t (1 : Fin 2) * 512 + 1 * (j 1).val; rw [e7]; omega

/-- A row index is in point t's block iff each coordinate is in the block's range on its axis. -/
theorem mem_blk (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v10).slice (win0_3.rect t)).set ↔ _
  rw [View.set_slice_whole, Rect.mem_set_unit]
  exact Iff.rfl

/-- The region's result array after the run: every pixel row's estimate after twenty steps. Row r is in the block
    of point r / 1024. -/
theorem final (c : Dev nD) : (dats m 0 c).arrAt 3 cfg0.N = pixelRows m c :=
  (dats m 0 c).arrAt_eq_of_cover 3 (pixelRows m c) (fun t _ => flushed_eq m c t) (fun i => by
    have hi0 : (i 0).val < 8192 := (i 0).isLt
    have hi1 : (i 1).val < 512 := (i 1).isLt
    have hN : cfg0.N = 8 := N_0
    have ht : (i 0).val / 1024 < cfg0.N := by rw [hN]; omega
    obtain ⟨-, -, -, -, -, -, e6, e7⟩ := idx_facts ⟨(i 0).val / 1024, ht⟩
    refine ⟨⟨(i 0).val / 1024, ht⟩, flush0_3 _, ?_⟩
    rw [mem_blk]
    intro a
    match a with
    | ⟨0, _⟩ =>
      show win0_3.index ⟨(i 0).val / 1024, ht⟩ (0 : Fin 2) * 1024 ≤ (i 0).val ∧ (i 0).val < win0_3.index ⟨(i 0).val / 1024, ht⟩ (0 : Fin 2) * 1024 + 1024
      rw [e6]; show (i 0).val / 1024 * 1024 ≤ (i 0).val ∧ (i 0).val < (i 0).val / 1024 * 1024 + 1024; omega
    | ⟨1, _⟩ =>
      show win0_3.index ⟨(i 0).val / 1024, ht⟩ (1 : Fin 2) * 512 ≤ (i 1).val ∧ (i 1).val < win0_3.index ⟨(i 0).val / 1024, ht⟩ (1 : Fin 2) * 512 + 512
      rw [e7]; omega)

/-- The program's result: the rows folded back to the grid and the estimate's axis moved second, which is the
    specification of the argument and the normalised matrix. -/
theorem tail_eq (c : Dev nD) :
    (Pipeline.afterTail₀ cfgs (dats m) 0 (V0 m) [hostOps1] c main_v12 : S8x512x32x32.Idx → EReal)
      = G (m (c, Proc.devRef .tc main_arg0)) (wnorm (m (c, Proc.devRef .tc main_arg1))) := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v10)
      = pixelRows m c := (Pipeline.withArrays_arr spec0 launch0.win.arr_inj c _ _ 3).trans (final m c)
  funext i
  obtain ⟨b, o, p, q, rfl⟩ : ∃ (b : Fin 8) (o : Fin 512) (p q : Fin 32), i = ix4 b o p q := ⟨i 0, i 1, i 2, i 3, eq_ix4 i⟩
  rw [transpose_apply [0, 3, 1, 2] _ transposes_S8x32x32x512_S8x512x32x32_0_3_1_2 (ix4 b o p q) (ix4 b p q o) (fun a => by
    match a with
    | ⟨0, _⟩ => rfl
    | ⟨1, _⟩ => rfl
    | ⟨2, _⟩ => rfl
    | ⟨3, _⟩ => rfl)]
  have hr : (b.val * 32 + p.val) * 32 + q.val < 8192 := by
    have := b.isLt; have := p.isLt; have := q.isLt; omega
  show shapeCast S8x32x32x512 (Pipeline.withArrays (cfgs 0).spec c (V0 m c) (fun w => (dats m 0 c).arrAt w (cfgs 0).N) (Proc.devRef .tc main_v10))
    shapeCasts_S8192x512_S8x32x32x512 (ix4 b p q o) = _
  rw [hA, shapeCast_apply _ shapeCasts_S8192x512_S8x32x32x512 (ix4 b p q o) (ix2 (⟨(b.val * 32 + p.val) * 32 + q.val, hr⟩ : Fin 8192) o) (by
    rw [Shape.rowMajor_val_four, Shape.rowMajor_val_two]
    show ((b.val * 32 + p.val) * 32 + q.val) * 512 + o.val = ((b.val * 32 + p.val) * 32 + q.val) * 512 + o.val
    rfl)]
  unfold pixelRows G
  show rowIter (fun o ch => (V m c main_v6 : S512x512.Idx → EReal) (ix2 o ch))
      (fun ch => (V m c main_v9 : S8192x512.Idx → EReal) (ix2 (⟨(b.val * 32 + p.val) * 32 + q.val, hr⟩ : Fin 8192) ch)) 20 o
    = rowIter (fun o ch => wnorm (m (c, Proc.devRef .tc main_arg1)) (ix2 o ch))
      (fun ch => (m (c, Proc.devRef .tc main_arg0) : S8x512x32x32.Idx → EReal) (ix4 b ch p q)) 20 o
  rw [V_matrix, show (fun ch => (V m c main_v9 : S8192x512.Idx → EReal) (ix2 (⟨(b.val * 32 + p.val) * 32 + q.val, hr⟩ : Fin 8192) ch))
      = fun ch => (m (c, Proc.devRef .tc main_arg0) : S8x512x32x32.Idx → EReal) (ix4 b ch p q) from
    funext fun ch => pixels_apply m c b p q ⟨(b.val * 32 + p.val) * 32 + q.val, hr⟩ rfl ch]

/-- The kernel's run, read: every weakly fair execution ends with the result at the specification of the
    arguments, and the arguments unchanged. -/
theorem run : θ_run defs (onTc (τ := τ) (main (F := Ideal))) ⟨m, fun _ => 0, ρ⟩ fun r => ∀ c : Dev nD,
      r.2.mem ((c.tc : Thread nD τ).loc main_v12) = G (m (c, Proc.devRef .tc main_arg0)) (wnorm (m (c, Proc.devRef .tc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.GridStep.lean ====
/-
  One step on the whole 8 × 32 × 32 grid of pixels with the channels last.

  With H the estimates and XI the channel vectors, both 8 × 32 × 32 × 512, and W the 512 × 512 matrix, the
  step contracts H with W over the estimate's axis (W's first axis), divides XI by that plus ε₁, contracts the
  quotient with W over the channel axis (W's second axis), multiplies by H, and divides by the sum over the
  last axis plus ε₂. Entry (b, p, q, o) of the result reads H and XI at pixel (b, p, q) only: it is the
  one-pixel step of the specification there.
-/
import Idealize.ShloMosaic.Lib.ValueIdx
import Idealize.ShloMosaic.Lib.ValueLayout
import Idealize.ShloMosaic.Lib.Pipeline.Value
import Idealize.ShloMosaic.PureOps.Ideal.Laws
import proofs.«152769_j23046794510685_1_alg».proof.Proof.Spec

noncomputable section

open scoped BigOperators

namespace Cert.Nmf

open Idealize.ShloMosaic Idealize.ShloMosaic.ValueIdx

/-- The grid of pixels with the channels last. -/
abbrev SG : Shape := ⟨4, ![8, 32, 32, 512]⟩
/-- One value per pixel, with a unit last axis. -/
abbrev SG1 : Shape := ⟨4, ![8, 32, 32, 1]⟩
/-- One value per pixel. -/
abbrev SP : Shape := ⟨3, ![8, 32, 32]⟩
/-- The scalar shape. -/
abbrev SS : Shape := ⟨0, ![]⟩
/-- The matrix. -/
abbrev SM : Shape := ⟨2, ![512, 512]⟩

/-- The grid's last axis against the matrix's first. -/
def dotFirst : DotDims SG SM SG where
  lhsContracting := [3]
  rhsContracting := [0]
  lhsNonContracting := [0, 1, 2]
  rhsNonContracting := [1]
  lhsBatch := []
  rhsBatch := []

/-- The grid's last axis against the matrix's second. -/
def dotSecond : DotDims SG SM SG where
  lhsContracting := [3]
  rhsContracting := [1]
  lhsNonContracting := [0, 1, 2]
  rhsNonContracting := [0]
  lhsBatch := []
  rhsBatch := []

/-- The contraction against the matrix's first axis, at (b, p, q, c): the sum over k of l(b, p, q, k) · r(k, c). -/
theorem dotFirst_sum (l : SG.Idx → EReal) (r : SM.Idx → EReal) (b : Fin 8) (p q : Fin 32) (c : Fin 512) :
    ∑ k : dotFirst.contr.Idx, l (dotFirst.lhsIdx (ix4 b p q c) k) * r (dotFirst.rhsIdx (ix4 b p q c) k)
      = ∑ k : Fin 512, l (ix4 b p q k) * r (ix2 k c) := by
  rw [← Equiv.sum_comp (contrEquiv1 dotFirst 512 rfl rfl).symm]
  refine Finset.sum_congr rfl fun k _ => ?_
  have hk := contrEquiv1_symm_val dotFirst 512 rfl rfl k
  have el : dotFirst.lhsIdx (ix4 b p q c) ((contrEquiv1 dotFirst 512 rfl rfl).symm k) = ix4 b p q k :=
    funext fun a => Fin.ext (by
      match a with
      | ⟨0, _⟩ => rfl
      | ⟨1, _⟩ => rfl
      | ⟨2, _⟩ => rfl
      | ⟨3, _⟩ => exact hk)
  have er : dotFirst.rhsIdx (ix4 b p q c) ((contrEquiv1 dotFirst 512 rfl rfl).symm k) = ix2 k c :=
    funext fun a => Fin.ext (by
      match a with
      | ⟨0, _⟩ => exact hk
      | ⟨1, _⟩ => rfl)
  rw [el, er]

/-- The contraction against the matrix's second axis, at (b, p, q, o): the sum over k of l(b, p, q, k) · r(o, k). -/
theorem dotSecond_sum (l : SG.Idx → EReal) (r : SM.Idx → EReal) (b : Fin 8) (p q : Fin 32) (o : Fin 512) :
    ∑ k : dotSecond.contr.Idx, l (dotSecond.lhsIdx (ix4 b p q o) k) * r (dotSecond.rhsIdx (ix4 b p q o) k)
      = ∑ k : Fin 512, l (ix4 b p q k) * r (ix2 o k) := by
  rw [← Equiv.sum_comp (contrEquiv1 dotSecond 512 rfl rfl).symm]
  refine Finset.sum_congr rfl fun k _ => ?_
  have hk := contrEquiv1_symm_val dotSecond 512 rfl rfl k
  have el : dotSecond.lhsIdx (ix4 b p q o) ((contrEquiv1 dotSecond 512 rfl rfl).symm k) = ix4 b p q k :=
    funext fun a => Fin.ext (by
      match a with
      | ⟨0, _⟩ => rfl
      | ⟨1, _⟩ => rfl
      | ⟨2, _⟩ => rfl
      | ⟨3, _⟩ => exact hk)
  have er : dotSecond.rhsIdx (ix4 b p q o) ((contrEquiv1 dotSecond 512 rfl rfl).symm k) = ix2 o k :=
    funext fun a => Fin.ext (by
      match a with
      | ⟨0, _⟩ => rfl
      | ⟨1, _⟩ => exact hk)
  rw [el, er]

/-- The multiplicative update on the grid. -/
def gridUpd (W : FVec Ideal SM .f32) (XI H : FVec Ideal SG .f32) (hb : SS.BroadcastsInDim SG ![]) : FVec Ideal SG .f32 :=
  mulf H (Host.dotGeneral dotSecond none (Host.divf XI (addf (Host.dotGeneral dotFirst none H W)
    (broadcastInDim SG ![] hb (constant SS .f32 0x1E3CE508#32)))) W)

/-- Entry (b, p, q, o) of the grid's update is the one-pixel update at pixel (b, p, q). -/
theorem gridUpd_apply (W : FVec Ideal SM .f32) (XI H : FVec Ideal SG .f32) (hb : SS.BroadcastsInDim SG ![])
    (b : Fin 8) (p q : Fin 32) (o : Fin 512) :
    gridUpd W XI H hb (ix4 b p q o)
      = upd (fun o c => W (ix2 o c)) (fun c => XI (ix4 b p q c)) (fun o => H (ix4 b p q o)) o := by
  show H (ix4 b p q o) * FloatOps.dotGeneral dotSecond none .single (Host.divf XI (addf (Host.dotGeneral dotFirst none H W)
    (broadcastInDim SG ![] hb (constant SS .f32 0x1E3CE508#32)))) W (ix4 b p q o) = _
  rw [Ideal.dotGeneral_apply, dotSecond_sum]
  unfold upd recon eps1
  refine congrArg _ (Finset.sum_congr rfl fun c _ => ?_)
  show Ideal.div (XI (ix4 b p q c)) (FloatOps.dotGeneral dotFirst none .single H W (ix4 b p q c)
    + broadcastInDim SG ![] hb (constant (F := Ideal) SS .f32 0x1E3CE508#32) (ix4 b p q c)) * W (ix2 o c) = _
  rw [Ideal.dotGeneral_apply, dotFirst_sum, broadcastInDim_apply ![] hb _ (ix4 b p q c) ix0 (fun a => a.elim0)]
  rfl

/-- Every pixel's vector divided by its sum plus ε₂. -/
def gridNorm (U : FVec Ideal SG .f32) (hr : SG.ReducesTo [3] SP) (h0 : 0 < SS.numel)
    (hb2 : SP.BroadcastsInDim SG1 ![0, 1, 2]) (hb1 : SS.BroadcastsInDim SG1 ![])
    (hb3 : SG1.BroadcastsInDim SG ![0, 1, 2, 3]) : FVec Ideal SG .f32 :=
  Host.divf U (broadcastInDim SG ![0, 1, 2, 3] hb3 (addf (broadcastInDim SG1 ![0, 1, 2] hb2
    (Host.reduceAdd U (constant SS .f32 0x00000000#32) hr h0)) (broadcastInDim SG1 ![] hb1 (constant SS .f32 0x1FEC1E4A#32))))

/-- Entry (b, p, q, o) of the normalised grid is U there over the sum of U at pixel (b, p, q) plus ε₂. -/
theorem gridNorm_apply (U : FVec Ideal SG .f32) (hr : SG.ReducesTo [3] SP) (h0 : 0 < SS.numel)
    (hb2 : SP.BroadcastsInDim SG1 ![0, 1, 2]) (hb1 : SS.BroadcastsInDim SG1 ![])
    (hb3 : SG1.BroadcastsInDim SG ![0, 1, 2, 3]) (b : Fin 8) (p q : Fin 32) (o : Fin 512) :
    gridNorm U hr h0 hb2 hb1 hb3 (ix4 b p q o)
      = Ideal.div (U (ix4 b p q o)) ((∑ k : Fin 512, U (ix4 b p q k)) + eps2) := by
  show Ideal.div (U (ix4 b p q o)) (broadcastInDim SG ![0, 1, 2, 3] hb3 (addf (broadcastInDim SG1 ![0, 1, 2] hb2
    (Host.reduceAdd U (constant SS .f32 0x00000000#32) hr h0)) (broadcastInDim SG1 ![] hb1 (constant SS .f32 0x1FEC1E4A#32))) (ix4 b p q o)) = _
  rw [broadcastInDim_apply ![0, 1, 2, 3] hb3 _ (ix4 b p q o) (ix4 b p q (0 : Fin 1)) (fun a => by
    match a with
    | ⟨0, _⟩ => rfl
    | ⟨1, _⟩ => rfl
    | ⟨2, _⟩ => rfl
    | ⟨3, _⟩ => rfl)]
  show Ideal.div (U (ix4 b p q o)) (broadcastInDim SG1 ![0, 1, 2] hb2 (Host.reduceAdd U (constant SS .f32 0x00000000#32) hr h0) (ix4 b p q (0 : Fin 1))
    + broadcastInDim SG1 ![] hb1 (constant (F := Ideal) SS .f32 0x1FEC1E4A#32) (ix4 b p q (0 : Fin 1))) = _
  rw [broadcastInDim_apply ![0, 1, 2] hb2 _ (ix4 b p q (0 : Fin 1)) (ix3 b p q) (fun a => by
    match a with
    | ⟨0, _⟩ => rfl
    | ⟨1, _⟩ => rfl
    | ⟨2, _⟩ => rfl),
    broadcastInDim_apply ![] hb1 _ (ix4 b p q (0 : Fin 1)) ix0 (fun a => a.elim0)]
  have hred : SG.Reduces [3] SP := by decide
  show Ideal.div (U (ix4 b p q o)) (Ideal.hostReduceAdd hr U (Ideal.ofBits .f32 0x00000000#32) (ix3 b p q) + eps2) = _
  rw [Ideal.hostReduceAdd_single hr hred U _ (ix3 b p q), Ideal.ofBits_zero_f32, zero_add]
  have e : ∀ k : Fin 512, hred.lift (ix3 b p q) k = ix4 b p q k := fun k => funext fun a => Fin.ext (by
    match a with
    | ⟨0, _⟩ => rfl
    | ⟨1, _⟩ => rfl
    | ⟨2, _⟩ => rfl
    | ⟨3, _⟩ => rfl)
  show Ideal.div (U (ix4 b p q o)) ((∑ k : Fin 512, U (hred.lift (ix3 b p q) k)) + eps2) = _
  simp only [e]

/-- One step on the grid. -/
def gridStep (W : FVec Ideal SM .f32) (XI H : FVec Ideal SG .f32) (hb : SS.BroadcastsInDim SG ![])
    (hr : SG.ReducesTo [3] SP) (h0 : 0 < SS.numel) (hb2 : SP.BroadcastsInDim SG1 ![0, 1, 2])
    (hb1 : SS.BroadcastsInDim SG1 ![]) (hb3 : SG1.BroadcastsInDim SG ![0, 1, 2, 3]) : FVec Ideal SG .f32 :=
  gridNorm (gridUpd W XI H hb) hr h0 hb2 hb1 hb3

/-- Entry (b, p, q, o) of a step on the grid is the one-pixel step at pixel (b, p, q), read at o. -/
theorem gridStep_apply (W : FVec Ideal SM .f32) (XI H : FVec Ideal SG .f32) (hb : SS.BroadcastsInDim SG ![])
    (hr : SG.ReducesTo [3] SP) (h0 : 0 < SS.numel) (hb2 : SP.BroadcastsInDim SG1 ![0, 1, 2])
    (hb1 : SS.BroadcastsInDim SG1 ![]) (hb3 : SG1.BroadcastsInDim SG ![0, 1, 2, 3])
    (b : Fin 8) (p q : Fin 32) (o : Fin 512) :
    gridStep W XI H hb hr h0 hb2 hb1 hb3 (ix4 b p q o)
      = rowStep (fun o c => W (ix2 o c)) (fun c => XI (ix4 b p q c)) (fun o => H (ix4 b p q o)) o := by
  unfold gridStep
  rw [gridNorm_apply]
  unfold rowStep
  simp only [gridUpd_apply W XI H hb]

/-- Entry (b, p, q, o) of the grid after `k` steps from the constant start is pixel (b, p, q)'s estimate after `k`
    steps, at o. -/
theorem gridIter_apply (W : FVec Ideal SM .f32) (XI H0 : FVec Ideal SG .f32) (hb : SS.BroadcastsInDim SG ![])
    (hr : SG.ReducesTo [3] SP) (h0 : 0 < SS.numel) (hb2 : SP.BroadcastsInDim SG1 ![0, 1, 2])
    (hb1 : SS.BroadcastsInDim SG1 ![]) (hb3 : SG1.BroadcastsInDim SG ![0, 1, 2, 3])
    (hH0 : ∀ (b : Fin 8) (p q : Fin 32) (o : Fin 512), H0 (ix4 b p q o) = start)
    (k : ℕ) (b : Fin 8) (p q : Fin 32) (o : Fin 512) :
    ((fun H => gridStep W XI H hb hr h0 hb2 hb1 hb3)^[k] H0) (ix4 b p q o)
      = rowIter (fun o c => W (ix2 o c)) (fun c => XI (ix4 b p q c)) k o := by
  induction k generalizing o with
  | zero => exact hH0 b p q o
  | succ k ih =>
    rw [Function.iterate_succ_apply', gridStep_apply, rowIter_succ]
    exact congrFun (congrArg _ (funext fun o' => ih o')) o

end Cert.Nmf

end
-- ==== Proof.RefIter.lean ====
/-
  The reference, read back: twenty steps on the grid from the constant start, then the channels moved to the
  second axis.

  The reference's run names the estimate after each of its twenty unrolled iterations; each is the grid step
  of the one before, with the normalised matrix and the argument with its channels moved last. So the last is
  the step applied twenty times to the constant start, and entry (b, o, p, q) of the result is pixel (b, p, q)'s
  estimate after twenty steps, read at o: the specification.
-/
import proofs.«152769_j23046794510685_1_alg».proof.Proof.Gen.ReferenceIdeal.Run
import proofs.«152769_j23046794510685_1_alg».proof.Proof.GridStep

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx Cert.Nmf

variable (V0 : Valuation τ sig (Elt Ideal))

/-- The reference's step on the grid: with its normalised matrix and its channels-last argument. -/
def rstep (H : FVec Ideal SG .f32) : FVec Ideal SG .f32 :=
  gridStep (res_main_v6 V0) (res_main_v7 V0) H bcast_S_S8x32x32x512 reducesTo_S8x32x32x512_S8x32x32_d3 h_S_
    bcast_S8x32x32_S8x32x32x1_0_1_2 bcast_S_S8x32x32x1 bcast_S8x32x32x1_S8x32x32x512_0_1_2_3

/-! Each named estimate is the step of the one before. -/
theorem stage1 : res_main_v20 V0 = rstep V0 (res_main_v8 V0) := rfl
theorem stage2 : res_main_v32 V0 = rstep V0 (res_main_v20 V0) := rfl
theorem stage3 : res_main_v44 V0 = rstep V0 (res_main_v32 V0) := rfl
theorem stage4 : res_main_v56 V0 = rstep V0 (res_main_v44 V0) := rfl
theorem stage5 : res_main_v68 V0 = rstep V0 (res_main_v56 V0) := rfl
theorem stage6 : res_main_v80 V0 = rstep V0 (res_main_v68 V0) := rfl
theorem stage7 : res_main_v92 V0 = rstep V0 (res_main_v80 V0) := rfl
theorem stage8 : res_main_v104 V0 = rstep V0 (res_main_v92 V0) := rfl
theorem stage9 : res_main_v116 V0 = rstep V0 (res_main_v104 V0) := rfl
theorem stage10 : res_main_v128 V0 = rstep V0 (res_main_v116 V0) := rfl
theorem stage11 : res_main_v140 V0 = rstep V0 (res_main_v128 V0) := rfl
theorem stage12 : res_main_v152 V0 = rstep V0 (res_main_v140 V0) := rfl
theorem stage13 : res_main_v164 V0 = rstep V0 (res_main_v152 V0) := rfl
theorem stage14 : res_main_v176 V0 = rstep V0 (res_main_v164 V0) := rfl
theorem stage15 : res_main_v188 V0 = rstep V0 (res_main_v176 V0) := rfl
theorem stage16 : res_main_v200 V0 = rstep V0 (res_main_v188 V0) := rfl
theorem stage17 : res_main_v212 V0 = rstep V0 (res_main_v200 V0) := rfl
theorem stage18 : res_main_v224 V0 = rstep V0 (res_main_v212 V0) := rfl
theorem stage19 : res_main_v236 V0 = rstep V0 (res_main_v224 V0) := rfl

/-- The estimate after nineteen iterations. -/
theorem iter19 : res_main_v236 V0 = (rstep V0)^[19] (res_main_v8 V0) := by
  rw [stage19 V0, stage18 V0, stage17 V0, stage16 V0, stage15 V0, stage14 V0, stage13 V0, stage12 V0, stage11 V0, stage10 V0, stage9 V0, stage8 V0, stage7 V0, stage6 V0, stage5 V0, stage4 V0, stage3 V0, stage2 V0, stage1 V0]
  rfl

/-- The reference's result as its run states it. -/
abbrev result : FVec Ideal S8x512x32x32 .f32 :=
  transpose S8x512x32x32 [0, 3, 1, 2] (Host.divf (res_main_v242 V0) (broadcastInDim S8x32x32x512 ![0, 1, 2, 3] bcast_S8x32x32x1_S8x32x32x512_0_1_2_3 (addf (broadcastInDim S8x32x32x1 ![0, 1, 2] bcast_S8x32x32_S8x32x32x1_0_1_2 (Host.reduceAdd (res_main_v242 V0) (constant S_ .f32 0x00000000#32) reducesTo_S8x32x32x512_S8x32x32_d3 h_S_)) (broadcastInDim S8x32x32x1 ![] bcast_S_S8x32x32x1 (constant S_ .f32 0x1FEC1E4A#32))))) transposes_S8x32x32x512_S8x512x32x32_0_3_1_2

/-- It is the twentieth estimate with the channels moved to the second axis. -/
theorem result_iter : result V0
    = transpose S8x512x32x32 [0, 3, 1, 2] ((rstep V0)^[20] (res_main_v8 V0)) transposes_S8x32x32x512_S8x512x32x32_0_3_1_2 := by
  have e : Host.divf (res_main_v242 V0) (broadcastInDim S8x32x32x512 ![0, 1, 2, 3] bcast_S8x32x32x1_S8x32x32x512_0_1_2_3 (addf (broadcastInDim S8x32x32x1 ![0, 1, 2] bcast_S8x32x32_S8x32x32x1_0_1_2 (Host.reduceAdd (res_main_v242 V0) (constant S_ .f32 0x00000000#32) reducesTo_S8x32x32x512_S8x32x32_d3 h_S_)) (broadcastInDim S8x32x32x1 ![] bcast_S_S8x32x32x1 (constant S_ .f32 0x1FEC1E4A#32))))
      = rstep V0 (res_main_v236 V0) := rfl
  unfold result
  rw [e, iter19, ← Function.iterate_succ_apply' (rstep V0) 19]

/-- The constant start, at every entry. -/
theorem start_apply (b : Fin 8) (p q : Fin 32) (o : Fin 512) : res_main_v8 V0 (ix4 b p q o) = start := by
  unfold res_main_v8
  rw [broadcastInDim_apply ![] bcast_S_S8x32x32x512 _ (ix4 b p q o) ix0 (fun a => a.elim0)]
  rfl

/-- The argument with its channels moved last, at pixel (b, p, q) and channel c. -/
theorem chan_apply (b : Fin 8) (p q : Fin 32) (c : Fin 512) :
    res_main_v7 V0 (ix4 b p q c) = (V0 (Proc.devRef .tc main_arg0) : S8x512x32x32.Idx → EReal) (ix4 b c p q) := by
  unfold res_main_v7
  exact transpose_apply [0, 2, 3, 1] _ transposes_S8x512x32x32_S8x32x32x512_0_2_3_1 (ix4 b p q c) (ix4 b c p q) (fun a => by
    match a with
    | ⟨0, _⟩ => rfl
    | ⟨1, _⟩ => rfl
    | ⟨2, _⟩ => rfl
    | ⟨3, _⟩ => rfl)

/-- The reference's result is the specification of its argument and its normalised matrix. -/
theorem result_eq : result V0 = G (V0 (Proc.devRef .tc main_arg0)) (res_main_v6 V0) := by
  rw [result_iter]
  funext i
  obtain ⟨b, o, p, q, rfl⟩ : ∃ (b : Fin 8) (o : Fin 512) (p q : Fin 32), i = ix4 b o p q := ⟨i 0, i 1, i 2, i 3, eq_ix4 i⟩
  rw [transpose_apply [0, 3, 1, 2] _ transposes_S8x32x32x512_S8x512x32x32_0_3_1_2 (ix4 b o p q) (ix4 b p q o) (fun a => by
    match a with
    | ⟨0, _⟩ => rfl
    | ⟨1, _⟩ => rfl
    | ⟨2, _⟩ => rfl
    | ⟨3, _⟩ => rfl)]
  unfold rstep
  rw [gridIter_apply _ _ _ _ _ _ _ _ _ (start_apply V0) 20 b p q o]
  unfold G
  exact congrFun (congrArg (fun x => rowIter _ x 20) (funext fun c => chan_apply V0 b p q c)) o

end Cert.ReferenceIdeal.Hand

end
-- ==== Proof.lean ====
/-
  A multiplicative-update loop for non-negative matrix factorisation, as a kernel over blocks of pixels and as
  plain array code over the whole grid: on the extended reals they compute the same thing.

  Both programs normalise the matrix the same way (every row of |weight| over its sum plus a small constant).
  Then, for every pixel (b, p, q) with channel vector x(b, ·, p, q), both start from the constant estimate 1/512
  and repeat twenty times:  reconstruct the channels from the estimate, divide the pixel's channels by the
  reconstruction (plus a small constant), send the quotient back through the matrix, multiply into the estimate,
  and divide by the estimate's sum (plus a small constant). The kernel lays the pixels out as 8192 rows, takes
  1024 rows per grid point and runs the twenty steps in a counted loop over a scratch block, its two matrix
  products on the matrix unit; the reference runs the twenty steps unrolled on the 8 × 32 × 32 × 512 array with
  general dot products. A step never mixes pixels, so a step on a block of rows and a step on the whole grid are
  both the one-pixel step (Proof/Spec.lean) on every pixel; by induction so are twenty of them. The same float
  words for the three constants appear on both sides and are never evaluated; no law beyond reading a matrix
  product, a row sum and the layout operations at an index is used, so the inputs' finiteness is not needed.

  Proof/BlockStep.lean and Proof/GridStep.lean read the two forms of a step at an index; Proof/KernelLoop.lean
  reads the kernel body's loop; Proof/KernelHost.lean and Proof/KernelValue.lean read the kernel's blocks, its
  result array and the host lines around the region; Proof/RefIter.lean reads the reference's run.
-/
import proofs.«152769_j23046794510685_1_alg».proof.Defs
import proofs.«152769_j23046794510685_1_alg».proof.Proof.Gen.Kernel
import proofs.«152769_j23046794510685_1_alg».proof.Proof.Gen.Kernel.Skeleton
import proofs.«152769_j23046794510685_1_alg».proof.Proof.Gen.Kernel.Loops
import proofs.«152769_j23046794510685_1_alg».proof.Proof.Gen.Kernel.Launch
import proofs.«152769_j23046794510685_1_alg».proof.Proof.Gen.Kernel.Points
import proofs.«152769_j23046794510685_1_alg».proof.Proof.Gen.Kernel.Frame
import proofs.«152769_j23046794510685_1_alg».proof.Proof.Gen.KernelIdeal
import proofs.«152769_j23046794510685_1_alg».proof.Proof.Gen.KernelIdeal.Skeleton
import proofs.«152769_j23046794510685_1_alg».proof.Proof.Gen.KernelIdeal.Loops
import proofs.«152769_j23046794510685_1_alg».proof.Proof.Gen.KernelIdeal.Launch
import proofs.«152769_j23046794510685_1_alg».proof.Proof.Gen.KernelIdeal.Points
import proofs.«152769_j23046794510685_1_alg».proof.Proof.Gen.KernelIdeal.Frame
import proofs.«152769_j23046794510685_1_alg».proof.Proof.Gen.ReferenceIdeal
import proofs.«152769_j23046794510685_1_alg».proof.Proof.Gen.ReferenceIdeal.Run
import proofs.«152769_j23046794510685_1_alg».proof.Proof.Gen.Pre_finite_inputs
import proofs.«152769_j23046794510685_1_alg».proof.Proof.KernelValue
import proofs.«152769_j23046794510685_1_alg».proof.Proof.RefIter
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs, faults nowhere and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- And the reference: its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The idealised kernel is the kernel's own text read on the extended reals: nothing was rewritten. -/
theorem preserves : Cert.preserves_Kernel_KernelIdeal := trivial

/-- The reference's normalised matrix is the kernel's: the same operations of the same argument. -/
theorem matrix_eq (V0 : Valuation Cert.ReferenceIdeal.τ Cert.ReferenceIdeal.sig (Elt Ideal)) :
    Cert.ReferenceIdeal.Value.res_main_v6 V0 = Cert.KernelIdeal.Hand.wnorm (V0 (Proc.devRef .tc Cert.ReferenceIdeal.main_arg1)) := rfl

/-- From memories that agree on the two arguments both programs end with the specification of those arguments. -/
theorem algebraic : Cert.algebraic_KernelIdeal_ReferenceIdeal := by
  intro m ρ m' ρ' _ hagree
  refine ⟨fun c => Cert.Nmf.G (m (c, Proc.devRef .tc Cert.KernelIdeal.main_arg0))
      (Cert.KernelIdeal.Hand.wnorm (m (c, Proc.devRef .tc Cert.KernelIdeal.main_arg1))), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Hand.result_eq (launchContents m' c)).trans ?_
  rw [matrix_eq]
  show Cert.Nmf.G (m' (c, Proc.devRef .tc Cert.ReferenceIdeal.main_arg0)) (Cert.KernelIdeal.Hand.wnorm (m' (c, Proc.devRef .tc Cert.ReferenceIdeal.main_arg1))) = _
  rw [show m' (c, Proc.devRef .tc Cert.ReferenceIdeal.main_arg0) = m (c, Proc.devRef .tc Cert.KernelIdeal.main_arg0) from (hagree c).1,
    show m' (c, Proc.devRef .tc Cert.ReferenceIdeal.main_arg1) = m (c, Proc.devRef .tc Cert.KernelIdeal.main_arg1) from (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
